-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x2048 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x768 .f32) (main_arg1 : FVec F S16384x768 .f32) (main_arg2 : FVec F S1024x768 .f32) (main_arg3 : FVec F S1024 .f32) (main_arg4 : FVec F S1x2048 .f32) (main_arg5 : FVec F S1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S16384x1 : Shape := ⟨2, ![16384, 1]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S16384x1, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024, .f32⟩
  | .local _ .vmem, ⟨6, _⟩ => ⟨S1x2048, .f32⟩
  | .local _ .vmem, ⟨7, _⟩ => ⟨S1, .f32⟩
  | .local _ .vmem, ⟨8, _⟩ => ⟨S1024x1, .f32⟩
  | .local _ .vmem, ⟨9, _⟩ => ⟨S1024x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1024x768_S1024x768_0_0 : ∀ a, (![0, 0] : Fin 2 → Nat) a + S1024x768.size a ≤ S1024x768.size a
  h_S1024x768 : 0 < S1024x768.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1x2048_S1x1024_0_0 : ∀ a, (![0, 0] : Fin 2 → Nat) a + S1x1024.size a ≤ S1x2048.size a
  h_S1x1024 : 0 < S1x1024.numel
  inb_S1x2048_S1x1024_0_1024 : ∀ a, (![0, 1024] : Fin 2 → Nat) a + S1x1024.size a ≤ S1x2048.size a
  reduces_S1024x1024_S1024 : S1024x1024.Reduces [1] S1024
  shapeCasts_S1024_S1024x1 : S1024.ShapeCasts S1024x1
  inb_S1_S1_0 : ∀ a, (![0] : Fin 1 → Nat) a + S1.size a ≤ S1.size a
  h_S1 : 0 < S1.numel
  inpos_S1_p0 : ∀ a, (![0] : Fin 1 → Nat) a < S1.size a
  inb_S1024x1_S1024x1_0_0 : ∀ a, (![0, 0] : Fin 2 → Nat) a + S1024x1.size a ≤ S1024x1.size a
  h_S1024x1 : 0 < S1024x1.numel
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S1024x768.size a
  hwx0_2 : ∀ i : grid0.Coords, EltTy.bits .f32 = 32 ∨ (Rect.block (s := S1024x768) S1024x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S16384x1.size a
  hwx0_6 : ∀ i : grid0.Coords, EltTy.bits .f32 = 32 ∨ (Rect.block (s := S16384x1) S1024x1.size (cc0_transform_6 i) (hinb0_6 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x768 : Shape := ⟨2, ![16384, 768]⟩
abbrev S1024x768 : Shape := ⟨2, ![1024, 768]⟩
abbrev S1024 : Shape := ⟨1, ![1024]⟩
abbrev S1x2048 : Shape := ⟨2, ![1, 2048]⟩
abbrev S1 : Shape := ⟨1, ![1]⟩
abbrev S16384x1024 : Shape := ⟨2, ![16384, 1024]⟩
abbrev S1x1024 : Shape := ⟨2, ![1, 1024]⟩
abbrev S16384x2048 : Shape := ⟨2, ![16384, 2048]⟩
abbrev S_ : Shape := ⟨0, ![]⟩
abbrev S16384x1 : Shape := ⟨2, ![16384, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S1024x768, .f32⟩
  | .hbm, ⟨3, _⟩ => ⟨S1024, .f32⟩
  | .hbm, ⟨4, _⟩ => ⟨S1x2048, .f32⟩
  | .hbm, ⟨5, _⟩ => ⟨S1, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x1, .f32⟩
  | .hbm, ⟨25, _⟩ => ⟨S1x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  concatenates_S16384x1024_S16384x1024_S16384x2048_d1 : Shape.Concatenates [S16384x1024, S16384x1024] S16384x2048 1
  bcast_S_S16384x2048 : S_.BroadcastsInDim S16384x2048 (![] : Fin 0 → Fin S16384x2048.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x768_S1024x768_S16384x1024_1_1_0_0_n_n_wf : DotDims.WF S16384x768 S1024x768 S16384x1024 [1] [1] [0] [0] [] []
  dot_S16384x2048_S1x2048_S16384x1_1_1_0_0_n_n_wf : DotDims.WF S16384x2048 S1x2048 S16384x1 [1] [1] [0] [0] [] []

variable [Facts₀]

def dot_S16384x768_S1024x768_S16384x1024_1_1_0_0_n_n : DotDims S16384x768 S1024x768 S16384x1024 where
  lhsContracting := [1]
  rhsContracting := [1]
  lhsNonContracting := [0]
  rhsNonContracting := [0]
  lhsBatch := []
  rhsBatch := []
  wf := dot_S16384x768_S1024x768_S16384x1024_1_1_0_0_n_n_wf
def dot_S16384x2048_S1x2048_S16384x1_1_1_0_0_n_n : DotDims S16384x2048 S1x2048 S16384x1 where
  lhsContracting := [1]
  rhsContracting := [1]
  lhsNonContracting := [0]
  rhsNonContracting := [0]
  lhsBatch := []
  rhsBatch := []
  wf := dot_S16384x2048_S1x2048_S16384x1_1_1_0_0_n_n_wf

class Facts : Prop extends Facts₀ where

variable [Facts]
-- ==== Proof.Spec.lean ====
/-
  The specification both programs are compared with, stated over plain index functions and importing neither program.

  A row of the two feature matrices is sent through ONE affine map into 1024 hidden units,
      pre x r h = Σ_f x[r, f] · w[h, f] + b[h],
  each unit is clamped to [0, 1] and squared (`screlu`), and the row's score is the logistic function of
      Σ_h ( screlu (pre xs r h) · o₁[h] + screlu (pre xn r h) · o₂[h] ) + c,
  where o₁ and o₂ are the two halves of one output weight row of length 2048 and c is the output bias.

  One program forms the two products of a hidden unit with its two output weights and adds the 1024 pairs; the other lays the
  2 · 1024 hidden values side by side and contracts them with the whole weight row in one sum of 2048 terms. The law that joins
  them, `sum_halves`, only regroups and reorders a finite sum, so it holds in the commutative monoid of the extended reals with
  no finiteness assumption: nothing is distributed or cancelled.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The word of `0.0` as an extended real. Both programs spell this word, so it is never evaluated. -/
abbrev lo32 : EReal := Ideal.ofBits .f32 0x00000000#32
/-- The word of `1.0` as an extended real. It is evaluated only where it meets the `1` of the logistic function. -/
abbrev hi32 : EReal := Ideal.ofBits .f32 0x3F800000#32

/-- The word of `1.0` denotes the extended real `1`. -/
theorem hi32_eq_one : hi32 = 1 := by
  show Ideal.ofBits .f32 0x3F800000#32 = 1
  simp [Ideal.ofBits, Ideal.ieee, -EReal.coe_mul]; norm_num

/-- Clamp to `[0, 1]` (first from below, then from above), then square. -/
def screlu (z : EReal) : EReal := min hi32 (max lo32 z) * min hi32 (max lo32 z)

/-- Hidden unit `h` of row `r` before the clamp: the row's inner product with weight row `h`, plus that unit's bias. -/
def pre {R : Nat} (x : (⟨2, ![R, 768]⟩ : Shape).Idx → EReal) (w : (⟨2, ![1024, 768]⟩ : Shape).Idx → EReal)
    (b : (⟨1, ![1024]⟩ : Shape).Idx → EReal) (r : Fin R) (h : Fin 1024) : EReal :=
  ∑ f : Fin 768, x (ix2 r f) * w (ix2 h f) + b (ix1 h)

/-- `pre` depends on the feature matrix through the one row it reads. -/
theorem pre_congr {R R' : Nat} (x : (⟨2, ![R, 768]⟩ : Shape).Idx → EReal) (x' : (⟨2, ![R', 768]⟩ : Shape).Idx → EReal)
    (w : (⟨2, ![1024, 768]⟩ : Shape).Idx → EReal) (b : (⟨1, ![1024]⟩ : Shape).Idx → EReal) (r : Fin R) (r' : Fin R')
    (hx : ∀ f : Fin 768, x (ix2 r f) = x' (ix2 r' f)) (h : Fin 1024) : pre x w b r h = pre x' w b r' h := by
  unfold pre
  exact congrArg (· + b (ix1 h)) (Finset.sum_congr rfl fun f _ => by rw [hx f])

/-- The score of row `r`: the logistic function of the 1024 pairs of weighted hidden values, added up, plus the bias. -/
def score {R : Nat} (xs xn : (⟨2, ![R, 768]⟩ : Shape).Idx → EReal) (w : (⟨2, ![1024, 768]⟩ : Shape).Idx → EReal)
    (b : (⟨1, ![1024]⟩ : Shape).Idx → EReal) (o₁ o₂ : Fin 1024 → EReal) (c : EReal) (r : Fin R) : EReal :=
  Ideal.logistic (∑ h : Fin 1024, (screlu (pre xs w b r h) * o₁ h + screlu (pre xn w b r h) * o₂ h) + c)

/-- The score reads the two feature matrices through row `r` only, and the two output weight functions entry by entry. -/
theorem score_congr {R R' : Nat} (xs xn : (⟨2, ![R, 768]⟩ : Shape).Idx → EReal) (xs' xn' : (⟨2, ![R', 768]⟩ : Shape).Idx → EReal)
    (w : (⟨2, ![1024, 768]⟩ : Shape).Idx → EReal) (b : (⟨1, ![1024]⟩ : Shape).Idx → EReal) (o₁ o₂ o₁' o₂' : Fin 1024 → EReal) (c : EReal)
    (r : Fin R) (r' : Fin R') (hs : ∀ f : Fin 768, xs (ix2 r f) = xs' (ix2 r' f)) (hn : ∀ f : Fin 768, xn (ix2 r f) = xn' (ix2 r' f))
    (h₁ : ∀ h : Fin 1024, o₁ h = o₁' h) (h₂ : ∀ h : Fin 1024, o₂ h = o₂' h) :
    score xs xn w b o₁ o₂ c r = score xs' xn' w b o₁' o₂' c r' := by
  unfold score
  refine congrArg (fun s => Ideal.logistic (s + c)) (Finset.sum_congr rfl fun h _ => ?_)
  rw [pre_congr xs xs' w b r r' hs h, pre_congr xn xn' w b r r' hn h, h₁ h, h₂ h]

/-- Position `h` of the first half of a row of length 2048. -/
def firstHalf (h : Fin 1024) : Fin 2048 := ⟨h.val, by have := h.isLt; omega⟩
/-- Position `h` of the second half. -/
def secondHalf (h : Fin 1024) : Fin 2048 := ⟨1024 + h.val, by have := h.isLt; omega⟩

/-- THE RESULT ARRAY as one function of the six argument arrays: entry `(r, 0)` is the score of row `r`, the output weight row
    read through its two halves. -/
def G (xs xn : (⟨2, ![16384, 768]⟩ : Shape).Idx → EReal) (w : (⟨2, ![1024, 768]⟩ : Shape).Idx → EReal)
    (b : (⟨1, ![1024]⟩ : Shape).Idx → EReal) (ow : (⟨2, ![1, 2048]⟩ : Shape).Idx → EReal) (ob : (⟨1, ![1]⟩ : Shape).Idx → EReal) :
    (⟨2, ![16384, 1]⟩ : Shape).Idx → EReal :=
  fun i => score xs xn w b (fun h => ow (ix2 (0 : Fin 1) (firstHalf h))) (fun h => ow (ix2 (0 : Fin 1) (secondHalf h))) (ob (ix1 (0 : Fin 1)))
    (⟨(i 0).val, idx2_lt0 i⟩ : Fin 16384)

/-- A sum over 2048 positions is the sum, over 1024 positions, of the term in the first half plus the term in the second. -/
theorem sum_halves (f : Fin 2048 → EReal) : ∑ k : Fin 2048, f k = ∑ h : Fin 1024, (f (firstHalf h) + f (secondHalf h)) := by
  rw [Finset.sum_add_distrib]
  exact Fin.sum_univ_add (a := 1024) (b := 1024) f

/-- The logistic function written out with the word of `1.0` — one over one plus the exponential of the negated argument — is
    the logistic function. -/
theorem logistic_spelt (x : EReal) : Ideal.div hi32 (hi32 + Ideal.exp (-x)) = Ideal.logistic x := by
  rw [hi32_eq_one]; rfl

end Cert.Spec

end
-- ==== Proof.Payload.lean ====
/-
  The kernel body's one stored value, read at an index: row `r` of the block it stores is the specification's `score` of row
  `r` of the two feature blocks it loaded.

  The body is pointwise except in three kinds of places, each read here at coordinates:
  * the matrix product of a feature block with the transposed weight block into a zero accumulator — at `(r, h)` the sum over
    the 768 features of the two rows' products (`matmul_zero_apply`);
  * a single row repeated down the rows — at `(r, h)` the row's entry `h` (`weight_row`): each half of the output weight row,
    and the bias vector once it is recast as one row (`bias_cast`);
  * the sum along each row, kept as a column — at `(r, 0)` the sum over the 1024 units of row `r` (`lane_sum`).
  Everything else is `max`, `min`, `·`, `+` and the logistic function applied entry by entry.
-/
import proofs.«138333_g57672820851425_pilotgen1_545_8_alg».proof.Proof.Gen.KernelIdeal.Skeleton
import proofs.«138333_g57672820851425_pilotgen1_545_8_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Spec

/-- The product's dimension record: both operands contract their second axis. -/
abbrev D := dot_S1024x768_S1024x768_S1024x1024_1_1_0_0_n_n

/-! ## The matrix product at an index -/

theorem lhs_row (i : S1024x1024.Idx) (q : D.contr.Idx) : (D.lhsIdx i q 0).val = (i 0).val := by
  unfold DotDims.lhsIdx
  rw [dif_neg (show ¬(0 : Fin S1024x768.rank) ∈ D.lhsBatch by decide), dif_pos (show (0 : Fin S1024x768.rank) ∈ D.lhsNonContracting by decide)]
  rfl

theorem rhs_row (i : S1024x1024.Idx) (q : D.contr.Idx) : (D.rhsIdx i q 0).val = (i 1).val := by
  unfold DotDims.rhsIdx
  rw [dif_neg (show ¬(0 : Fin S1024x768.rank) ∈ D.rhsBatch by decide), dif_pos (show (0 : Fin S1024x768.rank) ∈ D.rhsNonContracting by decide)]
  rfl

/-- The product of `a` with the transpose of `b`, accumulated into zero, at `(r, h)`: row `r` of `a` against row `h` of `b`. -/
theorem matmul_zero_apply (a b : FVec Ideal S1024x768 .f32) (r h : Fin 1024) :
    matmul dot_S1024x768_S1024x768_S1024x1024_1_1_0_0_n_n none a b (constant (F := Ideal) S1024x1024 .f32 0x00000000#32) (ix2 r h)
      = ∑ f : Fin 768, a (ix2 r f) * b (ix2 h f) := by
  simp only [matmul]
  rw [Ideal.matmul_constant_zero_apply, ← Equiv.sum_comp (contrEquiv1 D 768 rfl rfl).symm]
  refine Finset.sum_congr rfl fun k _ => ?_
  have hk := contrEquiv1_symm_val D 768 rfl rfl k
  have el : D.lhsIdx (ix2 r h) ((contrEquiv1 D 768 rfl rfl).symm k) = ix2 r k := funext fun ax => Fin.ext (by
    match ax with
    | ⟨0, _⟩ => exact lhs_row _ _
    | ⟨1, _⟩ => exact (D.lhsIdx_val_of_single rfl _ _).trans hk)
  have er : D.rhsIdx (ix2 r h) ((contrEquiv1 D 768 rfl rfl).symm k) = ix2 h k := funext fun ax => Fin.ext (by
    match ax with
    | ⟨0, _⟩ => exact rhs_row _ _
    | ⟨1, _⟩ => exact (D.rhsIdx_val_of_single rfl _ _).trans hk)
  rw [el, er]

/-! ## The two repeated rows -/

/-- The bias vector recast as one row: the row's entry `h` is the bias of unit `h`. -/
theorem bias_cast (b : FVec Ideal S1024 .f32) (u : Fin 1) (h : Fin 1024) :
    shapeCast S1x1024 b shapeCasts_S1024_S1x1024 (ix2 u h) = b (ix1 h) :=
  shapeCast_a_1a_apply b shapeCasts_S1024_S1x1024 u h

/-- One row repeated down the rows, at `(r, h)`, is the row's entry `h` (the bias row and each half of the output weight row). -/
theorem weight_row (o : FVec Ideal S1x1024 .f32) (r h : Fin 1024) :
    broadcastTo S1024x1024 o broadcasts_S1x1024_S1024x1024 (ix2 r h) = o (ix2 (0 : Fin 1) h) :=
  broadcastTo_1b_ab_apply o broadcasts_S1x1024_S1024x1024 r h

/-! ## The row sums kept as a column -/

/-- The sums along the rows, recast from a vector to a column, at `(r, u)`: the sum of row `r`. -/
theorem lane_sum (s : FVec Ideal S1024x1024 .f32) (r : Fin 1024) (u : Fin 1) :
    shapeCast S1024x1 (multiReduction .add [1] S1024 s 0x00000000#32 reduces_S1024x1024_S1024 (.inl rfl) rfl) shapeCasts_S1024_S1024x1 (ix2 r u)
      = ∑ h : Fin 1024, s (ix2 r h) := by
  refine (shapeCast_apply _ shapeCasts_S1024_S1024x1 (ix2 r u) (ix1 r) ?_).trans ?_
  · rw [Shape.rowMajor_val_one, Shape.rowMajor_val_two]
    show r.val = r.val * 1 + u.val
    omega
  · refine (Ideal.multiReduction_add_single s _ _ _ _ (ix1 r)).trans ?_
    exact Finset.sum_congr rfl fun h _ => congrArg s (funext fun ax => Fin.ext (by match ax with | ⟨0, _⟩ => rfl | ⟨1, _⟩ => rfl))

/-- The one entry of a length-one vector. -/
theorem extract_zero (v : FVec Ideal S1 .f32) : extractAt ![0] v inpos_S1_p0 = v (ix1 (0 : Fin 1)) := by
  unfold extractAt
  exact congrArg v (funext fun ax => Fin.ext (by match ax with | ⟨0, _⟩ => rfl))

theorem logistic_apply {s : Shape} (x : FVec Ideal s .f32) (i : s.Idx) : logistic x i = Ideal.logistic (x i) := rfl

/-! ## The stored value -/

/-- THE BODY'S STORED VALUE at `(r, u)` is the score of row `r` of the loaded blocks: `v2`, `v7` the two feature blocks, `v0` the
    weights, `v1` the biases, `v22`, `v25` the two halves of the output weight row, `v31` the output bias. -/
theorem pay_apply (v0 : FVec Ideal S1024x768 .f32) (v1 : FVec Ideal S1024 .f32) (v2 v7 : FVec Ideal S1024x768 .f32)
    (v22 v25 : FVec Ideal S1x1024 .f32) (v31 : FVec Ideal S1 .f32) (r : Fin 1024) (u : Fin 1) :
    k0_pay1 (F := Ideal) v0 v1 v2 v7 v22 v25 v31 (ix2 r u)
      = score v2 v7 v0 v1 (fun h => v22 (ix2 (0 : Fin 1) h)) (fun h => v25 (ix2 (0 : Fin 1) h)) (v31 (ix1 (0 : Fin 1))) r := by
  unfold k0_pay1
  dsimp only
  rw [logistic_apply, addf_apply, broadcast_apply, extract_zero, lane_sum]
  simp only [addf_apply, mulf_apply, minimumf_apply, maximumf_apply, broadcast_apply, weight_row, bias_cast, matmul_zero_apply]
  rfl

end Cert.KernelIdeal.Payload

end
-- ==== Proof.KernelValue.lean ====
/-
  The kernel's result array, after the whole grid has run, is the specification `Cert.Spec.G` of the argument arrays.

  The grid has 16 points. At point `t` the body sees rows `1024·t … 1024·t + 1023` of each feature matrix, and the weights, the
  biases, the output weight row and the output bias whole (their blocks do not move); it writes rows `1024·t … 1024·t + 1023`
  of the one-column result. Row `r` of what point `t` writes is the score of row `r` of its two feature blocks (the payload,
  read at an index), that is of row `1024·t + r` of the feature matrices: entry `(1024·t + r, 0)` of `G`. Row `R` of the result is
  written by point `R / 1024`, so the sixteen blocks cover the result and it ends holding `G` everywhere.
-/
import proofs.«138333_g57672820851425_pilotgen1_545_8_alg».proof.Proof.Gen.KernelIdeal.Value
import proofs.«138333_g57672820851425_pilotgen1_545_8_alg».proof.Proof.Payload
import proofs.«138333_g57672820851425_pilotgen1_545_8_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.Spec
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-! ## One grid point, over plain vectors -/

/-- The body's first load of the output weight row reads its first half. -/
theorem half_first (x4 : Vec Ideal S1x2048 .f32) (h : Fin 1024) :
    View.ld x4 r0_2 (ix2 (0 : Fin 1) h) = x4 (ix2 (0 : Fin 1) (firstHalf h)) := by
  show x4 (r0_2.idx (ix2 (0 : Fin 1) h)) = _
  refine congrArg x4 (funext fun a => Fin.ext ?_)
  match a with
  | ⟨0, _⟩ => rfl
  | ⟨1, _⟩ => show 0 + 1 * h.val = h.val; omega

/-- Its second load, from column 1024 on, reads the second half. -/
theorem half_second (x4 : Vec Ideal S1x2048 .f32) (h : Fin 1024) :
    View.ld x4 r0_3 (ix2 (0 : Fin 1) h) = x4 (ix2 (0 : Fin 1) (secondHalf h)) := by
  show x4 (r0_3.idx (ix2 (0 : Fin 1) h)) = _
  refine congrArg x4 (funext fun a => Fin.ext ?_)
  match a with
  | ⟨0, _⟩ => rfl
  | ⟨1, _⟩ => show 1024 + 1 * h.val = 1024 + h.val; omega

/-- WHAT THE BODY LEAVES IN THE OUTPUT BLOCK, at entry `j`, from feature blocks `x0`, `x1` that are rows of two matrices `A0`,
    `A1` — row `j 0` of the blocks being row `R` of the matrices —, is entry `i` of `G` for any `i` in row `R`. -/
theorem point_eq (x0 x1 x2 : Vec Ideal S1024x768 .f32) (x3 : Vec Ideal S1024 .f32) (x4 : Vec Ideal S1x2048 .f32) (x5 : Vec Ideal S1 .f32)
    (A0 A1 : S16384x768.Idx → EReal) (j : S1024x1.Idx) (R : Fin 16384)
    (h0 : ∀ (r : Fin 1024) (f : Fin 768), r.val = (j 0).val → x0 (ix2 r f) = A0 (ix2 R f))
    (h1 : ∀ (r : Fin 1024) (f : Fin 768), r.val = (j 0).val → x1 (ix2 r f) = A1 (ix2 R f))
    (i : S16384x1.Idx) (hi : (i 0).val = R.val) :
    out0_6 x0 x1 x2 x3 x4 x5 j = G A0 A1 x2 x3 x4 x5 i := by
  obtain ⟨r, u, rfl⟩ : ∃ (r : Fin 1024) (u : Fin 1), j = ix2 r u := ⟨j 0, j 1, eq_ix2 j⟩
  unfold out0_6
  rw [View.canon_unit_zero hz2]
  simp only [View.ld_unit_zero (S := S1024x768) hz2, View.ld_unit_zero (S := S1024) hz1, View.ld_unit_zero (S := S1) hz1]
  refine (Payload.pay_apply _ _ _ _ _ _ _ r u).trans ?_
  unfold G
  rw [show (⟨(i 0).val, idx2_lt0 i⟩ : Fin 16384) = R from Fin.ext hi]
  exact score_congr x0 x1 A0 A1 x2 x3 _ _ _ _ _ r R (fun f => h0 r f rfl) (fun f => h1 r f rfl) (half_first x4) (half_second x4)

/-! ## The blocks the grid's points see -/

variable (m : (ℓ : Loc nD τ sig) → Buf (Elt Ideal) ℓ) (ρ : Dev nD → PrngReg)

/-- The printed index maps, decided over the sixteen points: the two feature windows and the output window move down the
    rows with the point; the four parameter windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `r` of the first feature block at point `t` is row `1024·t + r` of the first feature matrix. -/
theorem feat0_apply (c : Dev nD) (t : Fin cfg0.N) (r : Fin 1024) (f : Fin 768) (R : Fin 16384) (hR : R.val = t.val * 1024 + r.val) :
    (iblk m c 0 t : Vec Ideal S1024x768 .f32) (ix2 r f) = (V m c main_arg0 : S16384x768.Idx → Elt Ideal .f32) (ix2 R f) := by
  obtain ⟨e0, e1, -⟩ := idx_facts t
  unfold iblk
  rw [View.read_apply]
  show V m c main_arg0 _ = V m c main_arg0 _
  refine congrArg (V m c main_arg0 : S16384x768.Idx → Elt Ideal .f32) (funext fun a => Fin.ext ?_)
  match a with
  | ⟨0, _⟩ => show win0_0.index t (0 : Fin 2) * 1024 + 1 * r.val = R.val; rw [e0, hR]; omega
  | ⟨1, _⟩ => show win0_0.index t (1 : Fin 2) * 768 + 1 * f.val = f.val; rw [e1]; omega

/-- The same for the second feature matrix. -/
theorem feat1_apply (c : Dev nD) (t : Fin cfg0.N) (r : Fin 1024) (f : Fin 768) (R : Fin 16384) (hR : R.val = t.val * 1024 + r.val) :
    (iblk m c 1 t : Vec Ideal S1024x768 .f32) (ix2 r f) = (V m c main_arg1 : S16384x768.Idx → Elt Ideal .f32) (ix2 R f) := by
  obtain ⟨-, -, e0, e1, -⟩ := idx_facts t
  unfold iblk
  rw [View.read_apply]
  show V m c main_arg1 _ = V m c main_arg1 _
  refine congrArg (V m c main_arg1 : S16384x768.Idx → Elt Ideal .f32) (funext fun a => Fin.ext ?_)
  match a with
  | ⟨0, _⟩ => show win0_1.index t (0 : Fin 2) * 1024 + 1 * r.val = R.val; rw [e0, hR]; omega
  | ⟨1, _⟩ => show win0_1.index t (1 : Fin 2) * 768 + 1 * f.val = f.val; rw [e1]; omega

/-- The weight window's block is the whole weight matrix, at every point. -/
theorem weights_eq (c : Dev nD) (t : Fin cfg0.N) :
    (iblk m c 2 t : Vec Ideal S1024x768 .f32) = (V m c main_arg2 : S1024x768.Idx → Elt Ideal .f32) := by
  obtain ⟨-, -, -, -, e0, e1, -⟩ := idx_facts t
  funext j
  unfold iblk
  rw [View.read_apply]
  show V m c main_arg2 _ = V m c main_arg2 j
  refine congrArg (V m c main_arg2 : S1024x768.Idx → Elt Ideal .f32) (funext fun a => Fin.ext ?_)
  match a with
  | ⟨0, _⟩ => show win0_2.index t (0 : Fin 2) * 1024 + 1 * (j 0).val = (j 0).val; rw [e0]; omega
  | ⟨1, _⟩ => show win0_2.index t (1 : Fin 2) * 768 + 1 * (j 1).val = (j 1).val; rw [e1]; omega

/-- The bias window's block is the whole bias vector. -/
theorem biases_eq (c : Dev nD) (t : Fin cfg0.N) :
    (iblk m c 3 t : Vec Ideal S1024 .f32) = (V m c main_arg3 : S1024.Idx → Elt Ideal .f32) := by
  obtain ⟨-, -, -, -, -, -, e0, -⟩ := idx_facts t
  funext j
  unfold iblk
  rw [View.read_apply]
  show V m c main_arg3 _ = V m c main_arg3 j
  refine congrArg (V m c main_arg3 : S1024.Idx → Elt Ideal .f32) (funext fun a => Fin.ext ?_)
  match a with
  | ⟨0, _⟩ => show win0_3.index t (0 : Fin 1) * 1024 + 1 * (j 0).val = (j 0).val; rw [e0]; omega

/-- The output weight window's block is the whole output weight row. -/
theorem outw_eq (c : Dev nD) (t : Fin cfg0.N) :
    (iblk m c 4 t : Vec Ideal S1x2048 .f32) = (V m c main_arg4 : S1x2048.Idx → Elt Ideal .f32) := by
  obtain ⟨-, -, -, -, -, -, -, e0, e1, -⟩ := idx_facts t
  funext j
  unfold iblk
  rw [View.read_apply]
  show V m c main_arg4 _ = V m c main_arg4 j
  refine congrArg (V m c main_arg4 : S1x2048.Idx → Elt Ideal .f32) (funext fun a => Fin.ext ?_)
  match a with
  | ⟨0, _⟩ => show win0_4.index t (0 : Fin 2) * 1 + 1 * (j 0).val = (j 0).val; rw [e0]; omega
  | ⟨1, _⟩ => show win0_4.index t (1 : Fin 2) * 2048 + 1 * (j 1).val = (j 1).val; rw [e1]; omega

/-- The output bias window's block is the output bias. -/
theorem outb_eq (c : Dev nD) (t : Fin cfg0.N) :
    (iblk m c 5 t : Vec Ideal S1 .f32) = (V m c main_arg5 : S1.Idx → Elt Ideal .f32) := by
  obtain ⟨-, -, -, -, -, -, -, -, -, e0, -⟩ := idx_facts t
  funext j
  unfold iblk
  rw [View.read_apply]
  show V m c main_arg5 _ = V m c main_arg5 j
  refine congrArg (V m c main_arg5 : S1.Idx → Elt Ideal .f32) (funext fun a => Fin.ext ?_)
  match a with
  | ⟨0, _⟩ => show win0_5.index t (0 : Fin 1) * 1 + 1 * (j 0).val = (j 0).val; rw [e0]; omega

/-! ## From the blocks to the array -/

/-- The result as one function of the argument arrays as the region finds them. -/
abbrev result (c : Dev nD) : S16384x1.Idx → EReal :=
  G (V m c main_arg0) (V m c main_arg1) (V m c main_arg2) (V m c main_arg3) (V m c main_arg4) (V m c main_arg5)

/-- WHAT POINT `t` WRITES BACK is block `t` of `result`. -/
theorem flushed_eq (c : Dev nD) (t : Fin cfg0.N) :
    (dats m 0 c).flushed 6 t = ((cfg0.win 6).blk t).view.read (Elt Ideal) (result m c) := by
  rw [Value.flushed6, weights_eq m c t, biases_eq m c t, outw_eq m c t, outb_eq m c t]
  obtain ⟨-, -, -, -, -, -, -, -, -, -, e0, e1⟩ := idx_facts t
  have ht : t.val < 16 := Nat.lt_of_lt_of_eq t.isLt N_0
  funext j
  have hj0 : (j 0).val < 1024 := (j 0).isLt
  show out0_6 (iblk m c 0 t) (iblk m c 1 t) (V m c main_arg2) (V m c main_arg3) (V m c main_arg4) (V m c main_arg5) j
    = result m c (((cfg0.win 6).blk t).view.emb j)
  exact point_eq (iblk m c 0 t) (iblk m c 1 t) _ _ _ _ (V m c main_arg0) (V m c main_arg1) j ⟨t.val * 1024 + (j 0).val, by omega⟩
    (fun r f hr => feat0_apply m c t r f _ (by show t.val * 1024 + (j 0).val = t.val * 1024 + r.val; omega))
    (fun r f hr => feat1_apply m c t r f _ (by show t.val * 1024 + (j 0).val = t.val * 1024 + r.val; omega))
    (((cfg0.win 6).blk t).view.emb j)
    (by show win0_6.index t (0 : Fin 2) * 1024 + 1 * (j 0).val = t.val * 1024 + (j 0).val; rw [e0]; omega)

/-- An index of the result is in point `t`'s block iff each coordinate is in the block's range on its axis. -/
theorem mem_blk (t : Fin cfg0.N) (i : S16384x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0).slice (win0_6.rect t)).set ↔ _
  rw [View.set_slice_whole, Rect.mem_set_unit]
  exact Iff.rfl

/-- Every row of the result is written by the point that is its number divided by 1024. -/
theorem cover (i : S16384x1.Idx) : ∃ t : Fin cfg0.N, (cfg0.win 6).flush t = true ∧ i ∈ ((cfg0.win 6).blk t).view.set := by
  have hi0 : (i 0).val < 16384 := (i 0).isLt
  have hi1 : (i 1).val < 1 := (i 1).isLt
  obtain ⟨t, ht⟩ : ∃ t : Fin cfg0.N, t.val = (i 0).val / 1024 :=
    ⟨⟨(i 0).val / 1024, Nat.lt_of_lt_of_eq (by omega : (i 0).val / 1024 < 16) N_0.symm⟩, rfl⟩
  obtain ⟨-, -, -, -, -, -, -, -, -, -, e0, e1⟩ := idx_facts t
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 1 ≤ (i 1).val ∧ (i 1).val < win0_6.index t (1 : Fin 2) * 1 + 1
    rw [e1]; omega

/-- THE RESULT ARRAY after the run is `result`. -/
theorem final (c : Dev nD) : (dats m 0 c).arrAt 6 cfg0.N = result m c :=
  (dats m 0 c).arrAt_eq_of_cover 6 (result m c) (fun t _ => flushed_eq m c t) cover

/-- The run, read: the result array at `G` of the arguments' launch contents, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  The reference's result, read one operation at a time, is the specification `Cert.Spec.G` of its six arguments.

  Entry `(r, 0)` of the reference's last stage is one over one plus the exponential of the negated logit, the logit being the
  contraction, over the 2048 positions `k`, of the squared clamped hidden values of row `r` with the one output weight row, plus
  the output bias. The hidden values are two blocks laid side by side: at a position of the first half the first feature
  matrix's affine image, at a position of the second half the second's (`joined_first`, `joined_second`: the side-by-side
  array read at an index by the library's two lemmas for a two-piece concatenation). So the 2048-term sum regroups into the
  1024 pairs of the specification (`Cert.Spec.sum_halves`), and the spelt-out quotient is the logistic function.
-/
import proofs.«138333_g57672820851425_pilotgen1_545_8_alg».proof.Proof.Gen.ReferenceIdeal.Read
import proofs.«138333_g57672820851425_pilotgen1_545_8_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Spec

variable (x0 x1 : (⟨S16384x768, .f32⟩ : BufTy).Contents (Elt Ideal)) (x2 : (⟨S1024x768, .f32⟩ : BufTy).Contents (Elt Ideal))
  (x3 : (⟨S1024, .f32⟩ : BufTy).Contents (Elt Ideal)) (x4 : (⟨S1x2048, .f32⟩ : BufTy).Contents (Elt Ideal))
  (x5 : (⟨S1, .f32⟩ : BufTy).Contents (Elt Ideal))

/-! ## The index maps of the stages, at indices given by coordinates -/

theorem lidx0 (r : Fin 16384) (h : Fin 1024) (f : Fin 768) : lidx_main_v0 (ix2 r h) f = ix2 r f :=
  funext fun a => Fin.ext (by match a with | ⟨0, _⟩ => rfl | ⟨1, _⟩ => rfl)
theorem ridx0 (r : Fin 16384) (h : Fin 1024) (f : Fin 768) : ridx_main_v0 (ix2 r h) f = ix2 h f :=
  funext fun a => Fin.ext (by match a with | ⟨0, _⟩ => rfl | ⟨1, _⟩ => rfl)
theorem lidx4 (r : Fin 16384) (h : Fin 1024) (f : Fin 768) : lidx_main_v4 (ix2 r h) f = ix2 r f :=
  funext fun a => Fin.ext (by match a with | ⟨0, _⟩ => rfl | ⟨1, _⟩ => rfl)
theorem ridx4 (r : Fin 16384) (h : Fin 1024) (f : Fin 768) : ridx_main_v4 (ix2 r h) f = ix2 h f :=
  funext fun a => Fin.ext (by match a with | ⟨0, _⟩ => rfl | ⟨1, _⟩ => rfl)
theorem bias_idx (r : Fin 16384) (h : Fin 1024) : idx_main_v1 (idx_main_v2 (ix2 r h)) = ix1 h :=
  funext fun a => Fin.ext (by match a with | ⟨0, _⟩ => rfl)
theorem bias_idx' (r : Fin 16384) (h : Fin 1024) : idx_main_v5 (idx_main_v6 (ix2 r h)) = ix1 h :=
  funext fun a => Fin.ext (by match a with | ⟨0, _⟩ => rfl)
theorem lidx11 (r : Fin 16384) (u : Fin 1) (k : Fin 2048) : lidx_main_v11 (ix2 r u) k = ix2 r k :=
  funext fun a => Fin.ext (by match a with | ⟨0, _⟩ => rfl | ⟨1, _⟩ => rfl)
theorem ridx11 (r : Fin 16384) (u : Fin 1) (k : Fin 2048) : ridx_main_v11 (ix2 r u) k = ix2 (0 : Fin 1) k :=
  funext fun a => Fin.ext (by
    match a with
    | ⟨0, _⟩ => show u.val = 0; omega
    | ⟨1, _⟩ => rfl)
theorem outbias_idx (r : Fin 16384) (u : Fin 1) : idx_main_v12 (idx_main_v13 (ix2 r u)) = ix1 (0 : Fin 1) :=
  funext fun a => Fin.ext (by match a with | ⟨0, _⟩ => rfl)

/-! ## The two affine images, and the array that lays them side by side -/

/-- The first feature matrix's affine image at `(r, h)` is the specification's `pre`. -/
theorem affine_first (r : Fin 16384) (h : Fin 1024) : val_main_v3 (F := Ideal) x0 x2 x3 (ix2 r h) = pre x0 x2 x3 r h := by
  rw [val_main_v3_apply, val_main_v0_apply, val_main_v2_apply, val_main_v1_apply, bias_idx]
  simp only [lidx0, ridx0]
  rfl

/-- The second feature matrix's affine image at `(r, h)`. -/
theorem affine_second (r : Fin 16384) (h : Fin 1024) : val_main_v7 (F := Ideal) x1 x2 x3 (ix2 r h) = pre x1 x2 x3 r h := by
  rw [val_main_v7_apply, val_main_v4_apply, val_main_v6_apply, val_main_v5_apply, bias_idx']
  simp only [lidx4, ridx4]
  rfl

/-- At a position of the first half the side-by-side array holds the first image. -/
theorem joined_first (r : Fin 16384) (h : Fin 1024) :
    val_main_v8 (F := Ideal) x0 x1 x2 x3 (ix2 r (firstHalf h)) = pre x0 x2 x3 r h := by
  unfold val_main_v8
  refine (concatenate_pair_apply_left 1 _ _ concatenates_S16384x1024_S16384x1024_S16384x2048_d1 (ix2 r (firstHalf h)) rfl (ix2 r h)
    (fun b => by match b with | ⟨0, _⟩ => rfl | ⟨1, _⟩ => rfl)).trans ?_
  exact affine_first x0 x2 x3 r h

/-- At a position of the second half it holds the second image, the first half's length less. -/
theorem joined_second (r : Fin 16384) (h : Fin 1024) :
    val_main_v8 (F := Ideal) x0 x1 x2 x3 (ix2 r (secondHalf h)) = pre x1 x2 x3 r h := by
  unfold val_main_v8
  refine (concatenate_pair_apply_right 1 _ _ concatenates_S16384x1024_S16384x1024_S16384x2048_d1 (ix2 r (secondHalf h)) rfl rfl (ix2 r h)
    (fun b hb => by
      match b with
      | ⟨0, _⟩ => rfl
      | ⟨1, _⟩ => exact absurd rfl hb)
    (by show h.val + 1024 = 1024 + h.val; omega)).trans ?_
  exact affine_second x1 x2 x3 r h

/-- The squared clamped hidden value at `(r, k)` is `screlu` of the side-by-side array there. -/
theorem hidden_apply (r : Fin 16384) (k : Fin 2048) :
    val_main_v10 (F := Ideal) x0 x1 x2 x3 (ix2 r k) = screlu (val_main_v8 (F := Ideal) x0 x1 x2 x3 (ix2 r k)) := by
  rw [val_main_v10_apply, val_main_v9_apply, val_main_call0_v4_apply, val_main_call0_v3_apply, val_main_cst_0_apply,
    val_main_call0_v2_apply, val_main_call0_v1_apply, val_main_call0_v0_apply, val_main_cst_apply]
  rfl

/-! ## The result -/

/-- THE REFERENCE'S RESULT IS THE SPECIFICATION of its arguments. -/
theorem result_eq : val_main_v20 (F := Ideal) x0 x1 x2 x3 x4 x5 = G x0 x1 x2 x3 x4 x5 := by
  funext i
  obtain ⟨r, u, rfl⟩ : ∃ (r : Fin 16384) (u : Fin 1), i = ix2 r u := ⟨i 0, i 1, eq_ix2 i⟩
  rw [val_main_v20_apply, val_main_v19_apply, val_main_cst_2_apply, val_main_v18_apply, val_main_v17_apply, val_main_cst_1_apply,
    val_main_v16_apply, val_main_v15_apply, val_main_v14_apply, val_main_v13_apply, val_main_v12_apply, val_main_v11_apply, outbias_idx]
  simp only [lidx11, ridx11, hidden_apply]
  rw [sum_halves]
  simp only [joined_first, joined_second]
  exact logistic_spelt _

end Cert.ReferenceIdeal.RefValue

end
-- ==== Proof.lean ====
/-
  The certificate of a fused two-input scoring kernel against its plain reference, at the extended reals.

  Both programs compute, for each of 16384 rows `r`, the logistic function of
      Σ_h ( c(xs, r, h)² · ow[0, h] + c(xn, r, h)² · ow[0, 1024 + h] ) + ob[0],
  where c(x, r, h) is Σ_f x[r, f] · w[h, f] + b[h] clamped to [0, 1], h ranges over 1024 hidden units and f over 768 features.
  The kernel does it 1024 rows at a time: two matrix products against the transposed weights, the clamp and the square entry by
  entry, each hidden value times its output weight, the two products added, and a sum along each row. The reference lays the two
  1024-wide hidden blocks side by side, clamps and squares the 2048-wide array, contracts it with the whole output weight row,
  and spells the logistic function as one over one plus the exponential of the negated logit.

  At the extended reals the two agree entry by entry: a matrix product into a zero accumulator and a contraction are the same
  finite sum; the 2048-term contraction over the side-by-side array regroups into the 1024 pairs the kernel adds (sums in a
  commutative monoid: no finiteness is used, and the precondition is never opened); the spelt-out quotient is the logistic function.
  `Proof/Spec.lean` states the common function `G` and that regrouping; `Proof/Payload.lean` reads the kernel body's stored value
  at an index; `Proof/KernelValue.lean` takes the sixteen blocks to the whole array; `Proof/RefValue.lean` reads the reference's
  stages at an index. The three frames are the generated frame runs (the reference's: its generated run with the result dropped);
  the idealization rewrote nothing, so `preserves` is `True`.
-/
import proofs.«138333_g57672820851425_pilotgen1_545_8_alg».proof.Defs
import proofs.«138333_g57672820851425_pilotgen1_545_8_alg».proof.Proof.Gen.Kernel
import proofs.«138333_g57672820851425_pilotgen1_545_8_alg».proof.Proof.Gen.Kernel.Skeleton
import proofs.«138333_g57672820851425_pilotgen1_545_8_alg».proof.Proof.Gen.Kernel.Launch
import proofs.«138333_g57672820851425_pilotgen1_545_8_alg».proof.Proof.Gen.Kernel.Points
import proofs.«138333_g57672820851425_pilotgen1_545_8_alg».proof.Proof.Gen.Kernel.Frame
import proofs.«138333_g57672820851425_pilotgen1_545_8_alg».proof.Proof.Gen.KernelIdeal
import proofs.«138333_g57672820851425_pilotgen1_545_8_alg».proof.Proof.Gen.KernelIdeal.Skeleton
import proofs.«138333_g57672820851425_pilotgen1_545_8_alg».proof.Proof.Gen.KernelIdeal.Launch
import proofs.«138333_g57672820851425_pilotgen1_545_8_alg».proof.Proof.Gen.KernelIdeal.Points
import proofs.«138333_g57672820851425_pilotgen1_545_8_alg».proof.Proof.Gen.KernelIdeal.Frame
import proofs.«138333_g57672820851425_pilotgen1_545_8_alg».proof.Proof.Gen.ReferenceIdeal
import proofs.«138333_g57672820851425_pilotgen1_545_8_alg».proof.Proof.Gen.Pre_finite_inputs
import proofs.«138333_g57672820851425_pilotgen1_545_8_alg».proof.Proof.Gen.KernelIdeal.Value
import proofs.«138333_g57672820851425_pilotgen1_545_8_alg».proof.Proof.Gen.ReferenceIdeal.Run
import proofs.«138333_g57672820851425_pilotgen1_545_8_alg».proof.Proof.Gen.ReferenceIdeal.Read
import proofs.«138333_g57672820851425_pilotgen1_545_8_alg».proof.Proof.Spec
import proofs.«138333_g57672820851425_pilotgen1_545_8_alg».proof.Proof.KernelValue
import proofs.«138333_g57672820851425_pilotgen1_545_8_alg».proof.Proof.RefValue
import Idealize.ShloMosaic.Adequacy
import Idealize.ShloMosaic.Init

noncomputable section

namespace Cert.Proof

open Idealize.ShloMosaic Idealize.SL.Sem

/-- The kernel as printed runs and leaves its arguments unchanged: the generated frame run. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its generated run, the result's clause dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments the kernel's result array ends at `G` of them (the sixteen blocks, each row the
    score of its row) and the reference's at its composed stages, which are `G` of the same arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
